-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1024x64 : Shape := ⟨3, ![128, 1024, 64]⟩
abbrev S64x512 : Shape := ⟨2, ![64, 512]⟩
abbrev S32x64 : Shape := ⟨2, ![32, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S_ : Shape := ⟨0, ![]⟩

class Facts : Prop where
  bcast_S_S128x1024x64 : S_.BroadcastsInDim S128x1024x64 (![] : Fin 0 → Fin S128x1024x64.rank)
  reducesTo_S128x1024x64_S_d0_1_2 : S128x1024x64.ReducesTo [0, 1, 2] S_
  h_S_ : 0 < S_.numel
  bcast_S_S64x512 : S_.BroadcastsInDim S64x512 (![] : Fin 0 → Fin S64x512.rank)
  reducesTo_S64x512_S_d0_1 : S64x512.ReducesTo [0, 1] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg7 : FVec F S10 .f32) (main_v33 : IVec S_ 1) : IVec S_ 1 :=
  let main_v34 : FVec F S10 .f32 := Host.absf main_arg7
  let main_cst_12 : FVec F S_ .f32 := constant S_ .f32 0x7F800000#32
  let main_v35 : FVec F S10 .f32 := broadcastInDim S10 ![] bcast_S_S10 main_cst_12
  let main_v36 : IVec S10 1 := cmpf .olt main_v34 main_v35
  let main_c_13 : IVec S_ 1 := constantI S_ 1 1#1
  let main_v37 : IVec S_ 1 := (fun x v => Host.reduce IntOp.andi x v reducesTo_S10_S_d0 h_S_) main_v36 main_c_13
  let main_v38 : IVec S_ 1 := andi main_v33 main_v37
  main_v38

def fn_part1 {F : FTy → Type} [FloatOps F] (main_arg4 : FVec F S64x64 .f32) (main_arg5 : FVec F S64 .f32) (main_arg6 : FVec F S64x10 .f32) (main_arg7 : FVec F S10 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x10 .f32 := Host.absf main_arg6
  let main_cst_10 : FVec F S_ .f32 := constant S_ .f32 0x7F800000#32
  let main_v30 : FVec F S64x10 .f32 := broadcastInDim S64x10 ![] bcast_S_S64x10 main_cst_10
  let main_v31 : IVec S64x10 1 := cmpf .olt main_v29 main_v30
  let main_c_11 : IVec S_ 1 := constantI S_ 1 1#1
  let main_v32 : IVec S_ 1 := (fun x v => Host.reduce IntOp.andi x v reducesTo_S64x10_S_d0_1 h_S_) main_v31 main_c_11
  let main_v33 : IVec S_ 1 := andi main_v28 main_v32
  fn_part2 (F := F) main_arg7 main_v33

def fn {F : FTy → Type} [FloatOps F] (main_arg0 : FVec F S128x1024x64 .f32) (main_arg1 : FVec F S64x512 .f32) (main_arg2 : FVec F S32x64 .f32) (main_arg3 : FVec F S64 .f32) (main_arg4 : FVec F S64x64 .f32) (main_arg5 : FVec F S64 .f32) (main_arg6 : FVec F S64x10 .f32) (main_arg7 : FVec F S10 .f32) : IVec S_ 1 :=
  let main_v0 : FVec F S128x1024x64 .f32 := Host.absf main_arg0
  let main_cst : FVec F S_ .f32 := constant S_ .f32 0x7F800000#32
  let main_v1 : FVec F S128x1024x64 .f32 := broadcastInDim S128x1024x64 ![] bcast_S_S128x1024x64 main_cst
  let main_v2 : IVec S128x1024x64 1 := cmpf .olt main_v0 main_v1
  let main_c : IVec S_ 1 := constantI S_ 1 1#1
  let main_v3 : IVec S_ 1 := (fun x v => Host.reduce IntOp.andi x v reducesTo_S128x1024x64_S_d0_1_2 h_S_) main_v2 main_c
  let main_v4 : FVec F S64x512 .f32 := Host.absf main_arg1
  let main_cst_0 : FVec F S_ .f32 := constant S_ .f32 0x7F800000#32
  let main_v5 : FVec F S64x512 .f32 := broadcastInDim S64x512 ![] bcast_S_S64x512 main_cst_0
  let main_v6 : IVec S64x512 1 := cmpf .olt main_v4 main_v5
  let main_c_1 : IVec S_ 1 := constantI S_ 1 1#1
  let main_v7 : IVec S_ 1 := (fun x v => Host.reduce IntOp.andi x v reducesTo_S64x512_S_d0_1 h_S_) main_v6 main_c_1
  let main_v8 : IVec S_ 1 := andi main_v3 main_v7
  let main_v9 : FVec F S32x64 .f32 := Host.absf main_arg2
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_v13 main_v16
-- ==== Kernel.lean ====
abbrev S128x1024x64 : Shape := ⟨3, ![128, 1024, 64]⟩
abbrev S64x512 : Shape := ⟨2, ![64, 512]⟩
abbrev S32x64 : Shape := ⟨2, ![32, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S128x10 : Shape := ⟨2, ![128, 10]⟩
abbrev S32x128x64 : Shape := ⟨3, ![32, 128, 64]⟩
abbrev S32x10 : Shape := ⟨2, ![32, 10]⟩
abbrev S32x32 : Shape := ⟨2, ![32, 32]⟩
abbrev S4096x64 : Shape := ⟨2, ![4096, 64]⟩
abbrev S4096x512 : Shape := ⟨2, ![4096, 512]⟩
abbrev S4096x32 : Shape := ⟨2, ![4096, 32]⟩
abbrev S32x128x32 : Shape := ⟨3, ![32, 128, 32]⟩
abbrev S1x64 : Shape := ⟨2, ![1, 64]⟩
abbrev S1x10 : Shape := ⟨2, ![1, 10]⟩

abbrev nBuf : Space → Nat
  | .hbm => 13
  | .vmem => 12
  | .smem => 0
  | _ => 0

abbrev bufTy : (tb : Table) → Fin (tcTables nBuf tb) → BufTy
  | .hbm, ⟨0, _⟩ => ⟨S128x1024x64, .f32⟩
  | .hbm, ⟨1, _⟩ => ⟨S64x512, .f32⟩
  | .hbm, ⟨2, _⟩ => ⟨S32x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x10, .f32⟩
  | .hbm, ⟨7, _⟩ => ⟨S10, .f32⟩
  | .hbm, ⟨8, _⟩ => ⟨S64x512, .bf16⟩
  | .hbm, ⟨9, _⟩ => ⟨S32x64, .bf16⟩
  | .hbm, ⟨10, _⟩ => ⟨S64x64, .bf16⟩
  | .hbm, ⟨11, _⟩ => ⟨S64x10, .bf16⟩
  | .hbm, ⟨12, _⟩ => ⟨S128x10, .f32⟩
  | .local _ .vmem, ⟨0, _⟩ => ⟨S32x128x64, .f32⟩
  | .local _ .vmem, ⟨1, _⟩ => ⟨S32x128x64, .f32⟩
  | .local _ .vmem, ⟨2, _⟩ => ⟨S64x512, .bf16⟩
  | .local _ .vmem, ⟨3, _⟩ => ⟨S32x64, .bf16⟩
  | .local _ .vmem, ⟨4, _⟩ => ⟨S64, .f32⟩
  | .local _ .vmem, ⟨5, _⟩ => ⟨S64x64, .bf16⟩
  | .local _ .vmem, ⟨6, _⟩ => ⟨S64, .f32⟩
  | .local _ .vmem, ⟨7, _⟩ => ⟨S64x10, .bf16⟩
  | .local _ .vmem, ⟨8, _⟩ => ⟨S10, .f32⟩
  | .local _ .vmem, ⟨9, _⟩ => ⟨S32x10, .f32⟩
  | .local _ .vmem, ⟨10, _⟩ => ⟨S32x10, .f32⟩
  | .local _ .vmem, ⟨11, _⟩ => ⟨S32x32, .f32⟩
  | _, _ => ⟨S128x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v49 : BitVec 1 := Scalar.cmpi .eq arg1 c7_i32
  let v50 : BitVec 32 := Scalar.extui v49
  let c0_i32_11 : BitVec 32 := 0#32
  let v51 : BitVec 1 := Scalar.cmpi .ne v50 c0_i32_11
  v51

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S32x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S32x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x10 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S10 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S32x10 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  bitsLt_bf16_f32 : FTy.bits .bf16 < FTy.bits .f32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S32x128x64_S32x128x64_0_0_0 : ∀ a, (![0, 0, 0] : Fin 3 → Nat) a + S32x128x64.size a ≤ S32x128x64.size a
  h_S32x128x64 : 0 < S32x128x64.numel
  shapeCasts_S32x128x64_S4096x64 : S32x128x64.ShapeCasts S4096x64
  inb_S64x512_S64x512_0_0 : ∀ a, (![0, 0] : Fin 2 → Nat) a + S64x512.size a ≤ S64x512.size a
  h_S64x512 : 0 < S64x512.numel
  shapeCasts_S64x512_S64x512 : S64x512.ShapeCasts S64x512
  slices_S4096x512_o0_0_S4096x32 : S4096x512.Slices ![0, 0] S4096x32
  slices_S4096x512_o0_32_S4096x32 : S4096x512.Slices ![0, 32] S4096x32
  slices_S4096x512_o0_64_S4096x32 : S4096x512.Slices ![0, 64] S4096x32
  slices_S4096x512_o0_96_S4096x32 : S4096x512.Slices ![0, 96] S4096x32
  slices_S4096x512_o0_128_S4096x32 : S4096x512.Slices ![0, 128] S4096x32
  slices_S4096x512_o0_160_S4096x32 : S4096x512.Slices ![0, 160] S4096x32
  slices_S4096x512_o0_192_S4096x32 : S4096x512.Slices ![0, 192] S4096x32
  slices_S4096x512_o0_224_S4096x32 : S4096x512.Slices ![0, 224] S4096x32
  slices_S4096x512_o0_256_S4096x32 : S4096x512.Slices ![0, 256] S4096x32
  slices_S4096x512_o0_288_S4096x32 : S4096x512.Slices ![0, 288] S4096x32
  slices_S4096x512_o0_320_S4096x32 : S4096x512.Slices ![0, 320] S4096x32
  slices_S4096x512_o0_352_S4096x32 : S4096x512.Slices ![0, 352] S4096x32
  slices_S4096x512_o0_384_S4096x32 : S4096x512.Slices ![0, 384] S4096x32
  slices_S4096x512_o0_416_S4096x32 : S4096x512.Slices ![0, 416] S4096x32
  slices_S4096x512_o0_448_S4096x32 : S4096x512.Slices ![0, 448] S4096x32
  slices_S4096x512_o0_480_S4096x32 : S4096x512.Slices ![0, 480] S4096x32
  shapeCasts_S4096x32_S32x128x32 : S4096x32.ShapeCasts S32x128x32
  reduces_S32x128x32_S32x32 : S32x128x32.Reduces [1] S32x32
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S64_S64_0 : ∀ a, (![0] : Fin 1 → Nat) a + S64.size a ≤ S64.size a
  h_S64 : 0 < S64.numel
  shapeCasts_S64_S1x64 : S64.ShapeCasts S1x64
  broadcasts_S1x64_S32x64 : S1x64.Broadcasts S32x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x10_S64x10_0_0 : ∀ a, (![0, 0] : Fin 2 → Nat) a + S64x10.size a ≤ S64x10.size a
  h_S64x10 : 0 < S64x10.numel
  shapeCasts_S64x10_S64x10 : S64x10.ShapeCasts S64x10
  inb_S10_S10_0 : ∀ a, (![0] : Fin 1 → Nat) a + S10.size a ≤ S10.size a
  h_S10 : 0 < S10.numel
  shapeCasts_S10_S1x10 : S10.ShapeCasts S1x10
  broadcasts_S1x10_S32x10 : S1x10.Broadcasts S32x10
  inb_S32x10_S32x10_0_0 : ∀ a, (![0, 0] : Fin 2 → Nat) a + S32x10.size a ≤ S32x10.size a
  h_S32x10 : 0 < S32x10.numel
  dot_S4096x64_S64x512_S4096x512_1_0_0_1_n_n_wf : DotDims.WF S4096x64 S64x512 S4096x512 [1] [0] [0] [1] [] []
  dot_S32x32_S32x64_S32x64_1_0_0_1_n_n_wf : DotDims.WF S32x32 S32x64 S32x64 [1] [0] [0] [1] [] []
  dot_S32x64_S64x64_S32x64_1_0_0_1_n_n_wf : DotDims.WF S32x64 S64x64 S32x64 [1] [0] [0] [1] [] []
  dot_S32x64_S64x10_S32x10_1_0_0_1_n_n_wf : DotDims.WF S32x64 S64x10 S32x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x128x64.size a ≤ S128x1024x64.size a
  hwx0_0 : ∀ i : grid0.Coords, EltTy.bits .f32 = 32 ∨ (Rect.block (s := S128x1024x64) S32x128x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x512.size a ≤ S64x512.size a
  hwx0_1 : ∀ i : grid0.Coords, EltTy.bits .bf16 = 32 ∨ (Rect.block (s := S64x512) S64x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x64.size a ≤ S32x64.size a
  hwx0_2 : ∀ i : grid0.Coords, EltTy.bits .bf16 = 32 ∨ (Rect.block (s := S32x64) S32x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .bf16 = 32 ∨ (Rect.block (s := S64x64) S64x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x10.size a ≤ S64x10.size a
  hwx0_6 : ∀ i : grid0.Coords, EltTy.bits .bf16 = 32 ∨ (Rect.block (s := S64x10) S64x10.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S10.size a ≤ S10.size a
  hwx0_7 : ∀ i : grid0.Coords, EltTy.bits .f32 = 32 ∨ (Rect.block (s := S10) S10.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S32x10.size a ≤ S128x10.size a
  hwx0_8 : ∀ i : grid0.Coords, EltTy.bits .f32 = 32 ∨ (Rect.block (s := S128x10) S32x10.size (cc0_transform_8 i) (hinb0_8 i)).WholeWords (EltTy.packing .f32)

variable [Facts₀]

def dot_S4096x64_S64x512_S4096x512_1_0_0_1_n_n : DotDims S4096x64 S64x512 S4096x512 where
  lhsContracting := [1]
  rhsContracting := [0]
  lhsNonContracting := [0]
  rhsNonContracting := [1]
  lhsBatch := []
  rhsBatch := []
  wf := dot_S4096x64_S64x512_S4096x512_1_0_0_1_n_n_wf
def dot_S32x32_S32x64_S32x64_1_0_0_1_n_n : DotDims S32x32 S32x64 S32x64 where
  lhsContracting := [1]
  rhsContracting := [0]
  lhsNonContracting := [0]
  rhsNonContracting := [1]
  lhsBatch := []
  rhsBatch := []
  wf := dot_S32x32_S32x64_S32x64_1_0_0_1_n_n_wf
def dot_S32x64_S64x64_S32x64_1_0_0_1_n_n : DotDims S32x64 S64x64 S32x64 where
  lhsContracting := [1]
  rhsContracting := [0]
  lhsNonContracting := [0]
  rhsNonContracting := [1]
  lhsBatch := []
  rhsBatch := []
  wf := dot_S32x64_S64x64_S32x64_1_0_0_1_n_n_wf
def dot_S32x64_S64x10_S32x10_1_0_0_1_n_n : DotDims S32x64 S64x10 S32x10 where
  lhsContracting := [1]
  rhsContracting := [0]
  lhsNonContracting := [0]
  rhsNonContracting := [1]
  lhsBatch := []
  rhsBatch := []
  wf := dot_S32x64_S64x10_S32x10_1_0_0_1_n_n_wf

abbrev win0_0 : Pipeline.Window sig grid0 :=
  Pipeline.Window.ofSpec (Memref.whole main_arg0) S32x128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S32x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S64x10.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S10.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S32x10.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

class Facts : Prop extends Facts₀ where

variable [Facts]
-- ==== ReferenceIdeal.lean ====
abbrev S128x1024x64 : Shape := ⟨3, ![128, 1024, 64]⟩
abbrev S64x512 : Shape := ⟨2, ![64, 512]⟩
abbrev S32x64 : Shape := ⟨2, ![32, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S128x1024x512 : Shape := ⟨3, ![128, 1024, 512]⟩
abbrev S_ : Shape := ⟨0, ![]⟩
abbrev S128x1024x16x32 : Shape := ⟨4, ![128, 1024, 16, 32]⟩
abbrev S128x1024x32 : Shape := ⟨3, ![128, 1024, 32]⟩
abbrev S128x32 : Shape := ⟨2, ![128, 32]⟩
abbrev S128x64 : Shape := ⟨2, ![128, 64]⟩
abbrev S1x64 : Shape := ⟨2, ![1, 64]⟩
abbrev S128x10 : Shape := ⟨2, ![128, 10]⟩
abbrev S1x10 : Shape := ⟨2, ![1, 10]⟩

abbrev nBuf : Space → Nat
  | .hbm => 35
  | .vmem => 0
  | .smem => 0
  | _ => 0

abbrev bufTy : (tb : Table) → Fin (tcTables nBuf tb) → BufTy
  | .hbm, ⟨0, _⟩ => ⟨S128x1024x64, .f32⟩
  | .hbm, ⟨1, _⟩ => ⟨S64x512, .f32⟩
  | .hbm, ⟨2, _⟩ => ⟨S32x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x10, .f32⟩
  | .hbm, ⟨7, _⟩ => ⟨S10, .f32⟩
  | .hbm, ⟨8, _⟩ => ⟨S128x1024x512, .f32⟩
  | .hbm, ⟨9, _⟩ => ⟨S_, .f32⟩
  | .hbm, ⟨10, _⟩ => ⟨S128x1024x512, .f32⟩
  | .hbm, ⟨11, _⟩ => ⟨S128x1024x512, .f32⟩
  | .hbm, ⟨12, _⟩ => ⟨S128x1024x16x32, .f32⟩
  | .hbm, ⟨13, _⟩ => ⟨S_, .f32⟩
  | .hbm, ⟨14, _⟩ => ⟨S128x1024x32, .f32⟩
  | .hbm, ⟨15, _⟩ => ⟨S_, .f32⟩
  | .hbm, ⟨16, _⟩ => ⟨S128x32, .f32⟩
  | .hbm, ⟨17, _⟩ => ⟨S128x64, .f32⟩
  | .hbm, ⟨18, _⟩ => ⟨S1x64, .f32⟩
  | .hbm, ⟨19, _⟩ => ⟨S128x64, .f32⟩
  | .hbm, ⟨20, _⟩ => ⟨S128x64, .f32⟩
  | .hbm, ⟨21, _⟩ => ⟨S_, .f32⟩
  | .hbm, ⟨22, _⟩ => ⟨S128x64, .f32⟩
  | .hbm, ⟨23, _⟩ => ⟨S128x64, .f32⟩
  | .hbm, ⟨24, _⟩ => ⟨S128x64, .f32⟩
  | .hbm, ⟨25, _⟩ => ⟨S1x64, .f32⟩
  | .hbm, ⟨26, _⟩ => ⟨S128x64, .f32⟩
  | .hbm, ⟨27, _⟩ => ⟨S128x64, .f32⟩
  | .hbm, ⟨28, _⟩ => ⟨S_, .f32⟩
  | .hbm, ⟨29, _⟩ => ⟨S128x64, .f32⟩
  | .hbm, ⟨30, _⟩ => ⟨S128x64, .f32⟩
  | .hbm, ⟨31, _⟩ => ⟨S128x10, .f32⟩
  | .hbm, ⟨32, _⟩ => ⟨S1x10, .f32⟩
  | .hbm, ⟨33, _⟩ => ⟨S128x10, .f32⟩
  | .hbm, ⟨34, _⟩ => ⟨S128x10, .f32⟩
  | _, _ => ⟨S128x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_call0_cst : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_cst : Ref sig .tc := ⟨.hbm, 21, rfl⟩
abbrev main_call1_v0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_call2_cst : Ref sig .tc := ⟨.hbm, 28, rfl⟩
abbrev main_call2_v0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩

abbrev nD : Nat := 1
abbrev τ : Topo := Topo.v7x

variable {F : FTy → Type} [FloatOps F]

class Facts₀ : Prop where
  bcast_S_S128x1024x512 : S_.BroadcastsInDim S128x1024x512 (![] : Fin 0 → Fin S128x1024x512.rank)
  shapeCasts_S128x1024x512_S128x1024x16x32 : S128x1024x512.ShapeCasts S128x1024x16x32
  reducesTo_S128x1024x16x32_S128x1024x32_d2 : S128x1024x16x32.ReducesTo [2] S128x1024x32
  h_S_ : 0 < S_.numel
  reducesTo_S128x1024x32_S128x32_d1 : S128x1024x32.ReducesTo [1] S128x32
  bcast_S64_S1x64_1 : S64.BroadcastsInDim S1x64 (![1] : Fin 1 → Fin S1x64.rank)
  bcast_S1x64_S128x64_0_1 : S1x64.BroadcastsInDim S128x64 (![0, 1] : Fin 2 → Fin S128x64.rank)
  bcast_S_S128x64 : S_.BroadcastsInDim S128x64 (![] : Fin 0 → Fin S128x64.rank)
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  dot_S128x1024x64_S64x512_S128x1024x512_2_0_01_1_n_n_wf : DotDims.WF S128x1024x64 S64x512 S128x1024x512 [2] [0] [0, 1] [1] [] []
  dot_S128x32_S32x64_S128x64_1_0_0_1_n_n_wf : DotDims.WF S128x32 S32x64 S128x64 [1] [0] [0] [1] [] []
  dot_S128x64_S64x64_S128x64_1_0_0_1_n_n_wf : DotDims.WF S128x64 S64x64 S128x64 [1] [0] [0] [1] [] []
  dot_S128x64_S64x10_S128x10_1_0_0_1_n_n_wf : DotDims.WF S128x64 S64x10 S128x10 [1] [0] [0] [1] [] []

variable [Facts₀]

def dot_S128x1024x64_S64x512_S128x1024x512_2_0_01_1_n_n : DotDims S128x1024x64 S64x512 S128x1024x512 where
  lhsContracting := [2]
  rhsContracting := [0]
  lhsNonContracting := [0, 1]
  rhsNonContracting := [1]
  lhsBatch := []
  rhsBatch := []
  wf := dot_S128x1024x64_S64x512_S128x1024x512_2_0_01_1_n_n_wf
def dot_S128x32_S32x64_S128x64_1_0_0_1_n_n : DotDims S128x32 S32x64 S128x64 where
  lhsContracting := [1]
  rhsContracting := [0]
  lhsNonContracting := [0]
  rhsNonContracting := [1]
  lhsBatch := []
  rhsBatch := []
  wf := dot_S128x32_S32x64_S128x64_1_0_0_1_n_n_wf
def dot_S128x64_S64x64_S128x64_1_0_0_1_n_n : DotDims S128x64 S64x64 S128x64 where
  lhsContracting := [1]
  rhsContracting := [0]
  lhsNonContracting := [0]
  rhsNonContracting := [1]
  lhsBatch := []
  rhsBatch := []
  wf := dot_S128x64_S64x64_S128x64_1_0_0_1_n_n_wf
def dot_S128x64_S64x10_S128x10_1_0_0_1_n_n : DotDims S128x64 S64x10 S128x10 where
  lhsContracting := [1]
  rhsContracting := [0]
  lhsNonContracting := [0]
  rhsNonContracting := [1]
  lhsBatch := []
  rhsBatch := []
  wf := dot_S128x64_S64x10_S128x10_1_0_0_1_n_n_wf

class Facts : Prop extends Facts₀ where

variable [Facts]
-- ==== Proof.Spec.lean ====
/-
  The mathematics of the pooled representative-set network, stated once over the extended reals.

  For a batch entry `b` and a set element `p`, hidden unit `k` (of 512) is the rectified inner product
  `max (∑ d, X b p d · Wc d k) 0`. The 512 units are 16 groups of 32: unit `32·e + h` is member `e` of hidden set `h`.
  A set's response to an element is the largest of its 16 members, and the pooled feature is the sum of these responses
  over the 1024 elements. Three dense layers, the first two rectified, turn the 32 pooled features into 10 outputs.

  Two rearrangements are proved here, both valid for every extended real (only the commutative-monoid laws of `+` and
  the lattice laws of `max` are used, so no finiteness is needed): a maximum taken member by member from the first is
  the maximum of the family, and a sum over 1024 elements is the sum over 8 chunks of the sums over 128.
-/
import Idealize.ShloMosaic.PureOps.Ideal
import Idealize.ShloMosaic.Lib.ValueIdx

noncomputable section

open scoped BigOperators

namespace Cert.RepSet

open Idealize.ShloMosaic Idealize.ShloMosaic.ValueIdx

/-- Member `e` of hidden set `h` is hidden unit `32·e + h`. -/
def unit (e : Fin 16) (h : Fin 32) : Fin 512 := ⟨32 * e.val + h.val, by have := e.isLt; have := h.isLt; omega⟩

/-- Element `128·s + q` of a set: element `q` of chunk `s`. -/
def elem (s : Fin 8) (q : Fin 128) : Fin 1024 := ⟨128 * s.val + q.val, by have := s.isLt; have := q.isLt; omega⟩

/-- The largest of sixteen numbers, taken one after the other from the first. -/
def chain16 (f : Fin 16 → EReal) : EReal :=
  max (max (max (max (max (max (max (max (max (max (max (max (max (max (max (f 0) (f 1)) (f 2)) (f 3)) (f 4)) (f 5)) (f 6))
    (f 7)) (f 8)) (f 9)) (f 10)) (f 11)) (f 12)) (f 13)) (f 14)) (f 15)

/-- Taken one after the other or all at once from `⊥`, the maximum of sixteen numbers is the same. -/
theorem chain16_eq_fold (f : Fin 16 → EReal) : chain16 f = Finset.univ.fold max ⊥ f := by
  refine le_antisymm ?_ ?_
  · have hle : ∀ e : Fin 16, f e ≤ Finset.univ.fold max ⊥ f := fun e =>
      (Finset.le_fold_max _).2 (Or.inr ⟨e, Finset.mem_univ e, le_rfl⟩)
    unfold chain16
    simp only [max_le_iff]
    exact ⟨⟨⟨⟨⟨⟨⟨⟨⟨⟨⟨⟨⟨⟨⟨hle 0, hle 1⟩, hle 2⟩, hle 3⟩, hle 4⟩, hle 5⟩, hle 6⟩, hle 7⟩, hle 8⟩, hle 9⟩, hle 10⟩, hle 11⟩,
      hle 12⟩, hle 13⟩, hle 14⟩, hle 15⟩
  · refine (Finset.fold_max_le _).2 ⟨bot_le, fun e _ => ?_⟩
    unfold chain16
    fin_cases e <;> simp [le_max_iff]

/-- A sum over 1024 elements is the sum over the 8 chunks of the sums over each chunk's 128 elements. -/
theorem sum_elem {M : Type} [AddCommMonoid M] (f : Fin 1024 → M) : ∑ p : Fin 1024, f p = ∑ s : Fin 8, ∑ q : Fin 128, f (elem s q) := by
  rw [← Fintype.sum_prod_type' (f := fun s q => f (elem s q))]
  refine (Equiv.sum_comp (finProdFinEquiv (m := 8) (n := 128)) f).symm.trans ?_
  refine Finset.sum_congr rfl fun x _ => congrArg f (Fin.ext ?_)
  show x.2.val + 128 * x.1.val = 128 * x.1.val + x.2.val
  omega

variable (X : (⟨3, ![128, 1024, 64]⟩ : Shape).Idx → EReal) (Wc : (⟨2, ![64, 512]⟩ : Shape).Idx → EReal)

/-- Hidden unit `k` at element `p` of batch entry `b`: the rectified inner product. -/
def hidden (b : Fin 128) (p : Fin 1024) (k : Fin 512) : EReal := max (∑ d : Fin 64, X (ix3 b p d) * Wc (ix2 d k)) 0

/-- Hidden set `h`'s response to element `p`: the largest of its sixteen members. -/
def response (b : Fin 128) (p : Fin 1024) (h : Fin 32) : EReal := Finset.univ.fold max ⊥ fun e : Fin 16 => hidden X Wc b p (unit e h)

/-- The pooled feature: the responses summed over the set's elements. -/
def pooled (b : Fin 128) (h : Fin 32) : EReal := ∑ p : Fin 1024, response X Wc b p h

/-- One dense layer: `v · W + c`. -/
def dense {n k : Nat} (v : Fin n → EReal) (W : (⟨2, ![n, k]⟩ : Shape).Idx → EReal) (c : (⟨1, ![k]⟩ : Shape).Idx → EReal) (j : Fin k) : EReal :=
  (∑ h : Fin n, v h * W (ix2 h j)) + c (ix1 j)

variable (w1 : (⟨2, ![32, 64]⟩ : Shape).Idx → EReal) (b1 : (⟨1, ![64]⟩ : Shape).Idx → EReal)
  (w2 : (⟨2, ![64, 64]⟩ : Shape).Idx → EReal) (b2 : (⟨1, ![64]⟩ : Shape).Idx → EReal)
  (w3 : (⟨2, ![64, 10]⟩ : Shape).Idx → EReal) (b3 : (⟨1, ![10]⟩ : Shape).Idx → EReal)

/-- The three dense layers on one row of 32 pooled features, the first two rectified. -/
def head (v : Fin 32 → EReal) (o : Fin 10) : EReal :=
  dense (fun j => max (dense (fun j => max (dense v w1 b1 j) 0) w2 b2 j) 0) w3 b3 o

/-- The network's output array: row `b` is the head applied to batch entry `b`'s pooled features. -/
def result : (⟨2, ![128, 10]⟩ : Shape).Idx → EReal :=
  fun i => head w1 b1 w2 b2 w3 b3 (fun h => pooled X Wc (i 0) h) (i 1)

theorem result_apply (b : Fin 128) (o : Fin 10) :
    result X Wc w1 b1 w2 b2 w3 b3 (ix2 b o) = head w1 b1 w2 b2 w3 b3 (fun h => pooled X Wc b h) o := rfl

end Cert.RepSet

end
-- ==== Proof.LibMatmulPlain.lean ====
/-
  Two general facts about matrix products at the ideal values.

  * A kernel's matrix product with the plain dimension numbers (rows by columns, one contracted axis, no batch axis)
    accumulated into the zero splat, read at entry (a, b), is the inner product of row `a` of the left factor with
    column `b` of the right one: `∑ c, A a c · B c b`.
  * On the extended reals a factor distributes over a sum of two NONNEGATIVE terms whatever the factor is (the two
    infinities of opposite sign cannot meet), so a weighted sum of such sums splits into the two weighted sums.
-/
import Idealize.ShloMosaic.Lib.StackMember
import Idealize.ShloMosaic.Lib.KernelVsHost
import Idealize.ShloMosaic.Lib.ValueIdx
import Idealize.ShloMosaic.PureOps.Ideal.Laws

noncomputable section

open scoped BigOperators

namespace Cert.LibMatmulPlain

open Idealize.ShloMosaic Idealize.ShloMosaic.ValueIdx

/-- A product with the plain dimension numbers accumulated into the zero splat, read at an entry: the inner product
    of a row of the left factor with a column of the right one. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

/-- A factor distributes over a sum of two nonnegative extended reals, so a weighted sum of such sums splits. -/
theorem sum_mul_add_of_nonneg {ι : Type} [Fintype ι] (w A B : ι → EReal) (hA : ∀ k, 0 ≤ A k) (hB : ∀ k, 0 ≤ B k) :
    ∑ k, w k * (A k + B k) = ∑ k, w k * A k + ∑ k, w k * B k := by
  rw [← Finset.sum_add_distrib]
  exact Finset.sum_congr rfl fun k _ => EReal.left_distrib_of_nonneg (hA k) (hB k)

end Cert.LibMatmulPlain

end
-- ==== Proof.LibFlatten.lean ====
/-
  A reshape that merges the two leading axes of a three-axis array into one, or splits the leading axis of a two-axis
  array into two, read at an index. Row-major order puts entry (p, q, k) of an [a, b, c] array at position
  (p * b + q) * c + k, and entry (R, k) of an [n, c] array at R * c + k: the two agree exactly when R = b * p + q.
-/
import Idealize.ShloMosaic.Lib.Pipeline.Value
import Idealize.ShloMosaic.Lib.ValueIdx

namespace Cert.LibFlatten

open Idealize.ShloMosaic Idealize.ShloMosaic.ValueIdx

/-- Merging the two leading axes: row b * p + q of the result is row (p, q) of the operand. -/
theorem merge_apply {α : Type} {a b c n : ℕ} (x : (⟨3, ![a, b, c]⟩ : Shape).Idx → α)
    (h : (⟨3, ![a, b, c]⟩ : Shape).ShapeCasts ⟨2, ![n, c]⟩) (p : Fin a) (q : Fin b) (k : Fin c) (R : Fin n)
    (hR : R.val = b * p.val + q.val) :
    shapeCast ⟨2, ![n, c]⟩ x h (ix2 R k) = x (ix3 p q k) :=
  shapeCast_apply x h (ix2 R k) (ix3 p q k) (by
    rw [Shape.rowMajor_val_three, Shape.rowMajor_val_two]
    show (p.val * b + q.val) * c + k.val = R.val * c + k.val
    rw [hR, Nat.mul_comm b p.val])

/-- Splitting the leading axis: entry (p, q) of the result is row b * p + q of the operand. -/
theorem split_apply {α : Type} {a b c n : ℕ} (y : (⟨2, ![n, c]⟩ : Shape).Idx → α)
    (h : (⟨2, ![n, c]⟩ : Shape).ShapeCasts ⟨3, ![a, b, c]⟩) (p : Fin a) (q : Fin b) (k : Fin c) (R : Fin n)
    (hR : R.val = b * p.val + q.val) :
    shapeCast ⟨3, ![a, b, c]⟩ y h (ix3 p q k) = y (ix2 R k) :=
  shapeCast_apply y h (ix3 p q k) (ix2 R k) (by
    rw [Shape.rowMajor_val_three, Shape.rowMajor_val_two]
    show R.val * c + k.val = (p.val * b + q.val) * c + k.val
    rw [hR, Nat.mul_comm b p.val])

end Cert.LibFlatten
-- ==== Proof.KPay.lean ====
/-
  The kernel body's four stored values, read entry by entry over the extended reals.

  * The chunk's partial sums: entry (r, h) is the sum over the chunk's 128 elements q of hidden set h's response to
    element q of tile row r — the largest, over the set's 16 members e, of the rectified inner product of the
    element's 64 features with column 32·e + h of the weights. The body computes the inner products as one
    [4096, 64] × [64, 512] product (row 128·r + q of the flattened chunk), rectifies, takes the maximum over the
    sixteen 32-column slabs one slab after the other, splits the rows back into (r, q) and sums over q.
  * The accumulator update: old + partial. The reset value: zero.
  * The three dense layers of a [32, 32] block, the first two rectified: row r, output o.
-/
import proofs.«143342_j59828894433555_2_alg».proof.Proof.Gen.KernelIdeal.Skeleton
import proofs.«143342_j59828894433555_2_alg».proof.Proof.Spec
import proofs.«143342_j59828894433555_2_alg».proof.Proof.LibMatmulPlain
import proofs.«143342_j59828894433555_2_alg».proof.Proof.LibFlatten
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.TcCoe Idealize.ShloMosaic.ValueIdx

namespace Cert.KernelIdeal.Pay

open Cert.KernelIdeal Cert.KernelIdeal.Gen Cert.RepSet Cert.LibMatmulPlain Cert.LibFlatten

/-! ## The stages, over variables -/

/-- The f32 zero word is the number zero. -/
theorem zero_word : (Scalar.ofBits (F := Ideal) .f32 0x00000000#32 : Ideal .f32) = 0 := Ideal.ofBits_zero_f32

/-- Rectification at an entry: the larger of the entry and zero. -/
theorem relu_apply {s : Shape} (Y : FVec Ideal s .f32) (i : s.Idx) :
    maximumf Y (broadcast s (Scalar.ofBits .f32 0x00000000#32)) i = max (Y i) 0 := by
  rw [maximumf_apply, broadcast_apply, zero_word]

/-- A sum over the middle axis of a [32, 128, 32] array at entry (r, h) is the sum over q of the entries (r, q, h). -/
theorem sum_axis1_apply (v : FVec Ideal ⟨3, ![32, 128, 32]⟩ .f32) (hr : (⟨3, ![32, 128, 32]⟩ : Shape).Reduces [1] ⟨2, ![32, 32]⟩)
    (hφ : FKind.Formats .f32) (hacc : (0x00000000#32 : BitVec 32) = FKind.add.neutral .f32 hφ) (r h : Fin 32) :
    multiReduction .add [1] ⟨2, ![32, 32]⟩ v 0x00000000#32 hr hφ hacc (ix2 r h) = ∑ q : Fin 128, v (ix3 r q h) := by
  refine (Ideal.multiReduction_add_single v 0x00000000#32 hr hφ hacc (ix2 r h)).trans ?_
  refine Finset.sum_congr rfl fun q _ => congrArg v ?_
  funext a; apply Fin.ext
  match a with
  | ⟨0, _⟩ => rfl
  | ⟨1, _⟩ => rfl
  | ⟨2, _⟩ => rfl

/-- The maximum over the sixteen 32-column slabs of a [4096, 512] array, taken slab after slab, at entry (R, h): the
    largest of the entries (R, 32·e + h). -/
theorem slabs_apply (v : FVec Ideal ⟨2, ![4096, 512]⟩ .f32) (s0 : (⟨2, ![4096, 512]⟩ : Shape).Slices ![0, 0] ⟨2, ![4096, 32]⟩) (s1 : (⟨2, ![4096, 512]⟩ : Shape).Slices ![0, 32] ⟨2, ![4096, 32]⟩) (s2 : (⟨2, ![4096, 512]⟩ : Shape).Slices ![0, 64] ⟨2, ![4096, 32]⟩) (s3 : (⟨2, ![4096, 512]⟩ : Shape).Slices ![0, 96] ⟨2, ![4096, 32]⟩) (s4 : (⟨2, ![4096, 512]⟩ : Shape).Slices ![0, 128] ⟨2, ![4096, 32]⟩) (s5 : (⟨2, ![4096, 512]⟩ : Shape).Slices ![0, 160] ⟨2, ![4096, 32]⟩) (s6 : (⟨2, ![4096, 512]⟩ : Shape).Slices ![0, 192] ⟨2, ![4096, 32]⟩) (s7 : (⟨2, ![4096, 512]⟩ : Shape).Slices ![0, 224] ⟨2, ![4096, 32]⟩) (s8 : (⟨2, ![4096, 512]⟩ : Shape).Slices ![0, 256] ⟨2, ![4096, 32]⟩) (s9 : (⟨2, ![4096, 512]⟩ : Shape).Slices ![0, 288] ⟨2, ![4096, 32]⟩) (s10 : (⟨2, ![4096, 512]⟩ : Shape).Slices ![0, 320] ⟨2, ![4096, 32]⟩) (s11 : (⟨2, ![4096, 512]⟩ : Shape).Slices ![0, 352] ⟨2, ![4096, 32]⟩) (s12 : (⟨2, ![4096, 512]⟩ : Shape).Slices ![0, 384] ⟨2, ![4096, 32]⟩) (s13 : (⟨2, ![4096, 512]⟩ : Shape).Slices ![0, 416] ⟨2, ![4096, 32]⟩) (s14 : (⟨2, ![4096, 512]⟩ : Shape).Slices ![0, 448] ⟨2, ![4096, 32]⟩) (s15 : (⟨2, ![4096, 512]⟩ : Shape).Slices ![0, 480] ⟨2, ![4096, 32]⟩)
    (R : Fin 4096) (h : Fin 32) :
    (maximumf (maximumf (maximumf (maximumf (maximumf (maximumf (maximumf (maximumf (maximumf (maximumf (maximumf (maximumf (maximumf (maximumf (maximumf (extractStridedSlice ⟨2, ![4096, 32]⟩ ![0, 0] v s0) (extractStridedSlice ⟨2, ![4096, 32]⟩ ![0, 32] v s1)) (extractStridedSlice ⟨2, ![4096, 32]⟩ ![0, 64] v s2)) (extractStridedSlice ⟨2, ![4096, 32]⟩ ![0, 96] v s3)) (extractStridedSlice ⟨2, ![4096, 32]⟩ ![0, 128] v s4)) (extractStridedSlice ⟨2, ![4096, 32]⟩ ![0, 160] v s5)) (extractStridedSlice ⟨2, ![4096, 32]⟩ ![0, 192] v s6)) (extractStridedSlice ⟨2, ![4096, 32]⟩ ![0, 224] v s7)) (extractStridedSlice ⟨2, ![4096, 32]⟩ ![0, 256] v s8)) (extractStridedSlice ⟨2, ![4096, 32]⟩ ![0, 288] v s9)) (extractStridedSlice ⟨2, ![4096, 32]⟩ ![0, 320] v s10)) (extractStridedSlice ⟨2, ![4096, 32]⟩ ![0, 352] v s11)) (extractStridedSlice ⟨2, ![4096, 32]⟩ ![0, 384] v s12)) (extractStridedSlice ⟨2, ![4096, 32]⟩ ![0, 416] v s13)) (extractStridedSlice ⟨2, ![4096, 32]⟩ ![0, 448] v s14)) (extractStridedSlice ⟨2, ![4096, 32]⟩ ![0, 480] v s15)) (ix2 R h) = chain16 fun e => v (ix2 R (unit e h)) := by
  unfold chain16
  simp only [maximumf_apply]
  rw [slice2_axis1_apply 0 v s0 R h (unit 0 h) rfl,
    slice2_axis1_apply 32 v s1 R h (unit 1 h) rfl,
    slice2_axis1_apply 64 v s2 R h (unit 2 h) rfl,
    slice2_axis1_apply 96 v s3 R h (unit 3 h) rfl,
    slice2_axis1_apply 128 v s4 R h (unit 4 h) rfl,
    slice2_axis1_apply 160 v s5 R h (unit 5 h) rfl,
    slice2_axis1_apply 192 v s6 R h (unit 6 h) rfl,
    slice2_axis1_apply 224 v s7 R h (unit 7 h) rfl,
    slice2_axis1_apply 256 v s8 R h (unit 8 h) rfl,
    slice2_axis1_apply 288 v s9 R h (unit 9 h) rfl,
    slice2_axis1_apply 320 v s10 R h (unit 10 h) rfl,
    slice2_axis1_apply 352 v s11 R h (unit 11 h) rfl,
    slice2_axis1_apply 384 v s12 R h (unit 12 h) rfl,
    slice2_axis1_apply 416 v s13 R h (unit 13 h) rfl,
    slice2_axis1_apply 448 v s14 R h (unit 14 h) rfl,
    slice2_axis1_apply 480 v s15 R h (unit 15 h) rfl]

/-- The rectified inner products, at row 128·p + q of the flattened chunk and column k. -/
theorem hidden_apply (x0 : FVec Ideal ⟨3, ![32, 128, 64]⟩ .f32) (x1 : FVec Ideal ⟨2, ![64, 512]⟩ .bf16) (hb : FTy.bits .bf16 < FTy.bits .f32)
    (hc1 : (⟨3, ![32, 128, 64]⟩ : Shape).ShapeCasts ⟨2, ![4096, 64]⟩) (hc2 : (⟨2, ![64, 512]⟩ : Shape).ShapeCasts ⟨2, ![64, 512]⟩)
    (p : Fin 32) (q : Fin 128) (R : Fin 4096) (hR : R.val = 128 * p.val + q.val) (k : Fin 512) :
    maximumf (matmul (DotDims.plain 4096 64 512) none (shapeCast ⟨2, ![4096, 64]⟩ (truncf .bf16 x0 hb) hc1) (shapeCast ⟨2, ![64, 512]⟩ x1 hc2)
        (constant ⟨2, ![4096, 512]⟩ .f32 0x00000000#32)) (broadcast ⟨2, ![4096, 512]⟩ (Scalar.ofBits .f32 0x00000000#32)) (ix2 R k)
      = max (∑ d : Fin 64, x0 (ix3 p q d) * x1 (ix2 d k)) 0 := by
  rw [relu_apply, matmul_plain_zero_apply]
  refine congrArg (max · 0) (Finset.sum_congr rfl fun d _ => ?_)
  rw [merge_apply _ hc1 p q d R hR, shapeCast_self, truncf_apply]

/-- One dense layer on a block of 32 rows: `X · W + c` at entry (r, j). -/
theorem layer_apply {n k : Nat} (X : FVec Ideal ⟨2, ![32, n]⟩ .f32) (W : FVec Ideal ⟨2, ![n, k]⟩ .bf16) (cv : FVec Ideal ⟨1, ![k]⟩ .f32)
    (hb : FTy.bits .bf16 < FTy.bits .f32) (hs : (⟨2, ![n, k]⟩ : Shape).ShapeCasts ⟨2, ![n, k]⟩)
    (hc : (⟨1, ![k]⟩ : Shape).ShapeCasts ⟨2, ![1, k]⟩) (hbr : (⟨2, ![1, k]⟩ : Shape).Broadcasts ⟨2, ![32, k]⟩) (r : Fin 32) (j : Fin k) :
    addf (matmul (DotDims.plain 32 n k) none (truncf .bf16 X hb) (shapeCast ⟨2, ![n, k]⟩ W hs) (constant ⟨2, ![32, k]⟩ .f32 0x00000000#32))
        (broadcastTo ⟨2, ![32, k]⟩ (shapeCast ⟨2, ![1, k]⟩ cv hc) hbr) (ix2 r j)
      = dense (fun h => X (ix2 r h)) W cv j := by
  rw [addf_apply, matmul_plain_zero_apply, broadcastTo_1b_ab_apply, shapeCast_a_1a_apply, shapeCast_self]
  rfl

/-! ## The stored values -/

/-- The chunk's partial sums at entry (r, h). -/
theorem partial_apply (x0 : Vec Ideal S32x128x64 .f32) (x1 : Vec Ideal S64x512 .bf16) (r h : Fin 32) :
    k0_pay4 (F := Ideal) x0 x1 (ix2 r h)
      = ∑ q : Fin 128, chain16 fun e => max (∑ d : Fin 64, x0 (ix3 r q d) * x1 (ix2 d (unit e h))) 0 := by
  unfold k0_pay4
  refine (sum_axis1_apply _ _ _ _ r h).trans (Finset.sum_congr rfl fun q _ => ?_)
  refine (split_apply _ _ r q h ⟨128 * r.val + q.val, by have := r.isLt; have := q.isLt; omega⟩ rfl).trans ?_
  refine (slabs_apply _ _ _ _ _ _ _ _ _ _ _ _ _ _ _ _ _ _ h).trans (congrArg chain16 (funext fun e => ?_))
  exact hidden_apply x0 x1 _ _ _ r q _ rfl (unit e h)

/-- The accumulator update at an entry: what was there plus the partial sum. -/
theorem update_apply (part old : Vec Ideal S32x32 .f32) (i : S32x32.Idx) : k0_pay1 (F := Ideal) part old i = old i + part i := by
  unfold k0_pay1
  exact congrFun (shapeCast_self _ _) i

/-- The reset value at an entry: zero. -/
theorem reset_apply (i : S32x32.Idx) : k0_pay3 (F := Ideal) i = 0 := by
  unfold k0_pay3
  exact (congrFun (shapeCast_self _ _) i).trans zero_word

/-- The three dense layers of a [32, 32] block at entry (r, o): the head applied to row r. -/
theorem head_apply (acc : Vec Ideal S32x32 .f32) (w1 : Vec Ideal S32x64 .bf16) (b1 : Vec Ideal S64 .f32) (w2 : Vec Ideal S64x64 .bf16)
    (b2 : Vec Ideal S64 .f32) (w3 : Vec Ideal S64x10 .bf16) (b3 : Vec Ideal S10 .f32) (r : Fin 32) (o : Fin 10) :
    k0_pay2 (F := Ideal) acc w1 b1 w2 b2 w3 b3 (ix2 r o) = head w1 b1 w2 b2 w3 b3 (fun h => acc (ix2 r h)) o := by
  unfold k0_pay2 head
  refine (layer_apply _ w3 b3 _ _ _ _ r o).trans (congrArg (fun v => dense v w3 b3 o) (funext fun j => ?_))
  refine (relu_apply _ (ix2 r j)).trans (congrArg (max · 0) ?_)
  refine (layer_apply _ w2 b2 _ _ _ _ r j).trans (congrArg (fun v => dense v w2 b2 j) (funext fun j' => ?_))
  refine (relu_apply _ (ix2 r j')).trans (congrArg (max · 0) ?_)
  exact layer_apply acc w1 b1 _ _ _ _ r j'

end Cert.KernelIdeal.Pay

end
-- ==== Proof.KCases.lean ====
/-
  What each of the kernel body's three control cases leaves behind, as values. The grid walks, for each of 4 batch
  tiles, the 8 chunks of the set axis. The body keeps a [32, 32] accumulator across the chunks of a tile: at the first
  chunk it is reset to zero and the chunk's partial sums added, at every later chunk the partial sums are added to what
  the chunk before left, and at the last chunk the three dense layers of the accumulator are stored to the output block.
-/
import proofs.«143342_j59828894433555_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Cases

open Cert.KernelIdeal Cert.KernelIdeal.Gen

variable {F : FTy → Type} [FloatOps F]

/-- Zero offsets, however many axes, are the constant zero. -/
theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- At the first chunk of a batch tile the accumulator is set to the zero block and the chunk's partial sums are added
    to it: the accumulator ends at `0 + partial`. -/
theorem acc_first (c : Dev nD) (i : grid0.Coords) (arg2 : Memref sig .tc .vmem S32x128x64 .f32) (harg2 : arg2.IsWhole) (arg3 : Memref sig .tc .vmem S64x512 .bf16) (harg3 : arg3.IsWhole) (arg4 : Memref sig .tc .vmem S32x64 .bf16) (harg4 : arg4.IsWhole) (arg5 : Memref sig .tc .vmem S64 .f32) (harg5 : arg5.IsWhole) (arg6 : Memref sig .tc .vmem S64x64 .bf16) (harg6 : arg6.IsWhole) (arg7 : Memref sig .tc .vmem S64 .f32) (harg7 : arg7.IsWhole) (arg8 : Memref sig .tc .vmem S64x10 .bf16) (harg8 : arg8.IsWhole) (arg9 : Memref sig .tc .vmem S10 .f32) (harg9 : arg9.IsWhole) (arg10 : Memref sig .tc .vmem S32x10 .f32) (harg10 : arg10.IsWhole) (arg11 : Memref sig .tc .vmem S32x32 .f32) (harg11 : arg11.IsWhole) (hc0 : cond0_0 i) (hc1 : ¬cond0_1 i) (x0 : Vec F S32x128x64 .f32) (x1 : Vec F S64x512 .bf16) (x2 : Vec F S32x64 .bf16) (x3 : Vec F S64 .f32) (x4 : Vec F S64x64 .bf16) (x5 : Vec F S64 .f32) (x6 : Vec F S64x10 .bf16) (x7 : Vec F S10 .f32) :
    sout0_A_0 c i arg2 harg2 arg3 harg3 arg4 harg4 arg5 harg5 arg6 harg6 arg7 harg7 arg8 harg8 arg9 harg9 arg10 harg10 arg11 harg11 hc0 hc1 x0 x1 x2 x3 x4 x5 x6 x7 = k0_pay1 (k0_pay4 x0 x1) (k0_pay3 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4 x5 x6 x7)]
  unfold kernelRun0_A
  dsimp only
  sl_unfold_words
  rw [View.canon_cons_unit_zero (S := S32x32) hz2, View.readCov_unit_zero (S := S32x32) _ hz2]
  simp only [View.readAt_eq_ld, harg2.read_unread, harg3.read_unread, harg4.read_unread, harg5.read_unread, harg6.read_unread, harg7.read_unread, harg8.read_unread, harg9.read_unread, harg11.read_unread, View.ld_unit_zero (S := S32x128x64) hz3, View.ld_unit_zero (S := S64x512) hz2, View.ld_unit_zero (S := S32x32) hz2, View.ld_unit_zero (S := S32x64) hz2, View.ld_unit_zero (S := S64x64) hz2, View.ld_unit_zero (S := S64x10) hz2, View.ld_unit_zero (S := S64) hz1, View.ld_unit_zero (S := S10) hz1]

/-- At a middle chunk the chunk's partial sums are added to what the chunk before left in the accumulator. -/
theorem acc_middle (c : Dev nD) (i : grid0.Coords) (arg2 : Memref sig .tc .vmem S32x128x64 .f32) (harg2 : arg2.IsWhole) (arg3 : Memref sig .tc .vmem S64x512 .bf16) (harg3 : arg3.IsWhole) (arg4 : Memref sig .tc .vmem S32x64 .bf16) (harg4 : arg4.IsWhole) (arg5 : Memref sig .tc .vmem S64 .f32) (harg5 : arg5.IsWhole) (arg6 : Memref sig .tc .vmem S64x64 .bf16) (harg6 : arg6.IsWhole) (arg7 : Memref sig .tc .vmem S64 .f32) (harg7 : arg7.IsWhole) (arg8 : Memref sig .tc .vmem S64x10 .bf16) (harg8 : arg8.IsWhole) (arg9 : Memref sig .tc .vmem S10 .f32) (harg9 : arg9.IsWhole) (arg10 : Memref sig .tc .vmem S32x10 .f32) (harg10 : arg10.IsWhole) (arg11 : Memref sig .tc .vmem S32x32 .f32) (harg11 : arg11.IsWhole) (hc0 : ¬cond0_0 i) (hc1 : ¬cond0_1 i) (x0 : Vec F S32x128x64 .f32) (x1 : Vec F S64x512 .bf16) (x2 : Vec F S32x64 .bf16) (x3 : Vec F S64 .f32) (x4 : Vec F S64x64 .bf16) (x5 : Vec F S64 .f32) (x6 : Vec F S64x10 .bf16) (x7 : Vec F S10 .f32) (xs0 : Vec F S32x32 .f32) :
    sout0_B_0 c i arg2 harg2 arg3 harg3 arg4 harg4 arg5 harg5 arg6 harg6 arg7 harg7 arg8 harg8 arg9 harg9 arg10 harg10 arg11 harg11 hc0 hc1 x0 x1 x2 x3 x4 x5 x6 x7 xs0 = k0_pay1 (k0_pay4 x0 x1) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg11.read_unread, View.ld_unit_zero (S := S32x128x64) hz3, View.ld_unit_zero (S := S64x512) hz2, View.ld_unit_zero (S := S32x32) hz2, View.ld_unit_zero (S := S32x64) hz2, View.ld_unit_zero (S := S64x64) hz2, View.ld_unit_zero (S := S64x10) hz2, View.ld_unit_zero (S := S64) hz1, View.ld_unit_zero (S := S10) hz1]

/-- At the last chunk the accumulator is updated in the same way, … -/
theorem acc_last (c : Dev nD) (i : grid0.Coords) (arg2 : Memref sig .tc .vmem S32x128x64 .f32) (harg2 : arg2.IsWhole) (arg3 : Memref sig .tc .vmem S64x512 .bf16) (harg3 : arg3.IsWhole) (arg4 : Memref sig .tc .vmem S32x64 .bf16) (harg4 : arg4.IsWhole) (arg5 : Memref sig .tc .vmem S64 .f32) (harg5 : arg5.IsWhole) (arg6 : Memref sig .tc .vmem S64x64 .bf16) (harg6 : arg6.IsWhole) (arg7 : Memref sig .tc .vmem S64 .f32) (harg7 : arg7.IsWhole) (arg8 : Memref sig .tc .vmem S64x10 .bf16) (harg8 : arg8.IsWhole) (arg9 : Memref sig .tc .vmem S10 .f32) (harg9 : arg9.IsWhole) (arg10 : Memref sig .tc .vmem S32x10 .f32) (harg10 : arg10.IsWhole) (arg11 : Memref sig .tc .vmem S32x32 .f32) (harg11 : arg11.IsWhole) (hc0 : ¬cond0_0 i) (hc1 : cond0_1 i) (x0 : Vec F S32x128x64 .f32) (x1 : Vec F S64x512 .bf16) (x2 : Vec F S32x64 .bf16) (x3 : Vec F S64 .f32) (x4 : Vec F S64x64 .bf16) (x5 : Vec F S64 .f32) (x6 : Vec F S64x10 .bf16) (x7 : Vec F S10 .f32) (xs0 : Vec F S32x32 .f32) :
    sout0_C_0 c i arg2 harg2 arg3 harg3 arg4 harg4 arg5 harg5 arg6 harg6 arg7 harg7 arg8 harg8 arg9 harg9 arg10 harg10 arg11 harg11 hc0 hc1 x0 x1 x2 x3 x4 x5 x6 x7 xs0 = k0_pay1 (k0_pay4 x0 x1) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg11.read_unread, View.ld_unit_zero (S := S32x128x64) hz3, View.ld_unit_zero (S := S64x512) hz2, View.ld_unit_zero (S := S32x32) hz2, View.ld_unit_zero (S := S32x64) hz2, View.ld_unit_zero (S := S64x64) hz2, View.ld_unit_zero (S := S64x10) hz2, View.ld_unit_zero (S := S64) hz1, View.ld_unit_zero (S := S10) hz1]

/-- … and the output block is the three dense layers of the updated accumulator. -/
theorem out_last (c : Dev nD) (i : grid0.Coords) (arg2 : Memref sig .tc .vmem S32x128x64 .f32) (harg2 : arg2.IsWhole) (arg3 : Memref sig .tc .vmem S64x512 .bf16) (harg3 : arg3.IsWhole) (arg4 : Memref sig .tc .vmem S32x64 .bf16) (harg4 : arg4.IsWhole) (arg5 : Memref sig .tc .vmem S64 .f32) (harg5 : arg5.IsWhole) (arg6 : Memref sig .tc .vmem S64x64 .bf16) (harg6 : arg6.IsWhole) (arg7 : Memref sig .tc .vmem S64 .f32) (harg7 : arg7.IsWhole) (arg8 : Memref sig .tc .vmem S64x10 .bf16) (harg8 : arg8.IsWhole) (arg9 : Memref sig .tc .vmem S10 .f32) (harg9 : arg9.IsWhole) (arg10 : Memref sig .tc .vmem S32x10 .f32) (harg10 : arg10.IsWhole) (arg11 : Memref sig .tc .vmem S32x32 .f32) (harg11 : arg11.IsWhole) (hc0 : ¬cond0_0 i) (hc1 : cond0_1 i) (x0 : Vec F S32x128x64 .f32) (x1 : Vec F S64x512 .bf16) (x2 : Vec F S32x64 .bf16) (x3 : Vec F S64 .f32) (x4 : Vec F S64x64 .bf16) (x5 : Vec F S64 .f32) (x6 : Vec F S64x10 .bf16) (x7 : Vec F S10 .f32) (xs0 : Vec F S32x32 .f32) :
    out0_C_8 c i arg2 harg2 arg3 harg3 arg4 harg4 arg5 harg5 arg6 harg6 arg7 harg7 arg8 harg8 arg9 harg9 arg10 harg10 arg11 harg11 hc0 hc1 x0 x1 x2 x3 x4 x5 x6 x7 xs0 = k0_pay2 (k0_pay1 (k0_pay4 x0 x1) xs0) x2 x3 x4 x5 x6 x7 := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_C
  dsimp only
  sl_unfold_words
  rw [View.canon_unit_zero hz2, View.readCov_unit_zero (S := S32x32) _ hz2]
  simp only [View.readAt_eq_ld, harg2.read_unread, harg3.read_unread, harg4.read_unread, harg5.read_unread, harg6.read_unread, harg7.read_unread, harg8.read_unread, harg9.read_unread, harg11.read_unread, View.ld_unit_zero (S := S32x128x64) hz3, View.ld_unit_zero (S := S64x512) hz2, View.ld_unit_zero (S := S32x32) hz2, View.ld_unit_zero (S := S32x64) hz2, View.ld_unit_zero (S := S64x64) hz2, View.ld_unit_zero (S := S64x10) hz2, View.ld_unit_zero (S := S64) hz1, View.ld_unit_zero (S := S10) hz1]

end Cert.KernelIdeal.Cases

end
-- ==== Proof.KBlocks.lean ====
/-
  What the body's input blocks hold. The first window walks the [128, 1024, 64] input in blocks of [32, 128, 64]:
  at grid point t (batch tile t / 8, chunk t % 8) entry (r, q, d) of the block is entry (32·(t / 8) + r, 128·(t % 8) + q, d)
  of the array. The seven other inputs are staged whole, so their block is the array at every point; four of them
  are the arrays the host program rounds to bf16 before the region.
-/
import proofs.«143342_j59828894433555_2_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

theorem idx0 : ∀ t : Fin cfg0.N, win0_0.index t (0 : Fin 3) = t.val / 8 ∧ win0_0.index t (1 : Fin 3) = t.val % 8 ∧ win0_0.index t (2 : Fin 3) = 0 :=
  (by decide +kernel : ∀ t : Fin grid0.N, _)

/-- The first window's block at point t, entry (r, q, d): entry (b, p, d) of the input with b = 32·(t / 8) + r and
    p = 128·(t % 8) + q. -/
theorem blk0_apply (c : Dev nD) (t : Fin cfg0.N) (r : Fin 32) (q : Fin 128) (d : Fin 64) (b : Fin 128) (p : Fin 1024)
    (hb : b.val = 32 * (t.val / 8) + r.val) (hp : p.val = 128 * (t.val % 8) + q.val) :
    iblk m c 0 t (ix3 r q d) = m ((c : Thread nD τ).loc main_arg0) (ix3 b p d) := by
  unfold iblk
  rw [View.read_apply]
  show V m c main_arg0 _ = _
  rw [V_main_arg0]
  refine congrArg _ (funext fun a => Fin.ext ?_)
  obtain ⟨e0, e1, e2⟩ := idx0 t
  match a with
  | ⟨0, _⟩ => show win0_0.index t (0 : Fin 3) * 32 + 1 * r.val = b.val; omega
  | ⟨1, _⟩ => show win0_0.index t (1 : Fin 3) * 128 + 1 * q.val = p.val; omega
  | ⟨2, _⟩ => show win0_0.index t (2 : Fin 3) * 64 + 1 * d.val = d.val; omega

/-- Before the region the host rounds `main_arg1` to bf16 into `main_v0`. -/
theorem V_main_v0 (c : Dev nD) : (V m c main_v0 : S64x512.Idx → Elt F .bf16) = truncf .bf16 (m ((c : Thread nD τ).loc main_arg1)) bitsLt_bf16_f32 := by
  dsimp only [Gen.V, Gen.hostOps0]; after_results

theorem idx1 : ∀ t : Fin cfg0.N, win0_1.index t (0 : Fin 2) = 0 ∧ win0_1.index t (1 : Fin 2) = 0 :=
  (by decide +kernel : ∀ t : Fin grid0.N, _)

/-- Window 1's block is the whole array at every point. -/
theorem blk1_apply (c : Dev nD) (t : Fin cfg0.N) (a : Fin 64) (b : Fin 512) :
    iblk m c 1 t (ix2 a b) = (truncf .bf16 (m ((c : Thread nD τ).loc main_arg1)) bitsLt_bf16_f32 : S64x512.Idx → Elt F .bf16) (ix2 a b) := by
  unfold iblk
  rw [View.read_apply]
  show V m c main_v0 _ = _
  rw [V_main_v0]
  refine congrArg _ (funext fun ax => Fin.ext ?_)
  obtain ⟨e0, e1⟩ := idx1 t
  match ax with
  | ⟨0, _⟩ => show win0_1.index t (0 : Fin 2) * 64 + 1 * a.val = a.val; omega
  | ⟨1, _⟩ => show win0_1.index t (1 : Fin 2) * 512 + 1 * b.val = b.val; omega

/-- Before the region the host rounds `main_arg2` to bf16 into `main_v1`. -/
theorem V_main_v1 (c : Dev nD) : (V m c main_v1 : S32x64.Idx → Elt F .bf16) = truncf .bf16 (m ((c : Thread nD τ).loc main_arg2)) bitsLt_bf16_f32 := by
  dsimp only [Gen.V, Gen.hostOps0]; after_results

theorem idx2 : ∀ t : Fin cfg0.N, win0_2.index t (0 : Fin 2) = 0 ∧ win0_2.index t (1 : Fin 2) = 0 :=
  (by decide +kernel : ∀ t : Fin grid0.N, _)

/-- Window 2's block is the whole array at every point. -/
theorem blk2_apply (c : Dev nD) (t : Fin cfg0.N) (a : Fin 32) (b : Fin 64) :
    iblk m c 2 t (ix2 a b) = (truncf .bf16 (m ((c : Thread nD τ).loc main_arg2)) bitsLt_bf16_f32 : S32x64.Idx → Elt F .bf16) (ix2 a b) := by
  unfold iblk
  rw [View.read_apply]
  show V m c main_v1 _ = _
  rw [V_main_v1]
  refine congrArg _ (funext fun ax => Fin.ext ?_)
  obtain ⟨e0, e1⟩ := idx2 t
  match ax with
  | ⟨0, _⟩ => show win0_2.index t (0 : Fin 2) * 32 + 1 * a.val = a.val; omega
  | ⟨1, _⟩ => show win0_2.index t (1 : Fin 2) * 64 + 1 * b.val = b.val; omega

theorem idx3 : ∀ t : Fin cfg0.N, win0_3.index t (0 : Fin 1) = 0 :=
  (by decide +kernel : ∀ t : Fin grid0.N, _)

/-- Window 3's block is the whole array at every point. -/
theorem blk3_apply (c : Dev nD) (t : Fin cfg0.N) (a : Fin 64) :
    iblk m c 3 t (ix1 a) = m ((c : Thread nD τ).loc main_arg3) (ix1 a) := by
  unfold iblk
  rw [View.read_apply]
  show V m c main_arg3 _ = _
  rw [V_main_arg3]
  refine congrArg _ (funext fun ax => Fin.ext ?_)
  have e0 := idx3 t
  match ax with
  | ⟨0, _⟩ => show win0_3.index t (0 : Fin 1) * 64 + 1 * a.val = a.val; omega

/-- Before the region the host rounds `main_arg4` to bf16 into `main_v2`. -/
theorem V_main_v2 (c : Dev nD) : (V m c main_v2 : S64x64.Idx → Elt F .bf16) = truncf .bf16 (m ((c : Thread nD τ).loc main_arg4)) bitsLt_bf16_f32 := by
  dsimp only [Gen.V, Gen.hostOps0]; after_results

theorem idx4 : ∀ t : Fin cfg0.N, win0_4.index t (0 : Fin 2) = 0 ∧ win0_4.index t (1 : Fin 2) = 0 :=
  (by decide +kernel : ∀ t : Fin grid0.N, _)

/-- Window 4's block is the whole array at every point. -/
theorem blk4_apply (c : Dev nD) (t : Fin cfg0.N) (a : Fin 64) (b : Fin 64) :
    iblk m c 4 t (ix2 a b) = (truncf .bf16 (m ((c : Thread nD τ).loc main_arg4)) bitsLt_bf16_f32 : S64x64.Idx → Elt F .bf16) (ix2 a b) := by
  unfold iblk
  rw [View.read_apply]
  show V m c main_v2 _ = _
  rw [V_main_v2]
  refine congrArg _ (funext fun ax => Fin.ext ?_)
  obtain ⟨e0, e1⟩ := idx4 t
  match ax with
  | ⟨0, _⟩ => show win0_4.index t (0 : Fin 2) * 64 + 1 * a.val = a.val; omega
  | ⟨1, _⟩ => show win0_4.index t (1 : Fin 2) * 64 + 1 * b.val = b.val; omega

theorem idx5 : ∀ t : Fin cfg0.N, win0_5.index t (0 : Fin 1) = 0 :=
  (by decide +kernel : ∀ t : Fin grid0.N, _)

/-- Window 5's block is the whole array at every point. -/
theorem blk5_apply (c : Dev nD) (t : Fin cfg0.N) (a : Fin 64) :
    iblk m c 5 t (ix1 a) = m ((c : Thread nD τ).loc main_arg5) (ix1 a) := by
  unfold iblk
  rw [View.read_apply]
  show V m c main_arg5 _ = _
  rw [V_main_arg5]
  refine congrArg _ (funext fun ax => Fin.ext ?_)
  have e0 := idx5 t
  match ax with
  | ⟨0, _⟩ => show win0_5.index t (0 : Fin 1) * 64 + 1 * a.val = a.val; omega

/-- Before the region the host rounds `main_arg6` to bf16 into `main_v3`. -/
theorem V_main_v3 (c : Dev nD) : (V m c main_v3 : S64x10.Idx → Elt F .bf16) = truncf .bf16 (m ((c : Thread nD τ).loc main_arg6)) bitsLt_bf16_f32 := by
  dsimp only [Gen.V, Gen.hostOps0]; after_results

theorem idx6 : ∀ t : Fin cfg0.N, win0_6.index t (0 : Fin 2) = 0 ∧ win0_6.index t (1 : Fin 2) = 0 :=
  (by decide +kernel : ∀ t : Fin grid0.N, _)

/-- Window 6's block is the whole array at every point. -/
theorem blk6_apply (c : Dev nD) (t : Fin cfg0.N) (a : Fin 64) (b : Fin 10) :
    iblk m c 6 t (ix2 a b) = (truncf .bf16 (m ((c : Thread nD τ).loc main_arg6)) bitsLt_bf16_f32 : S64x10.Idx → Elt F .bf16) (ix2 a b) := by
  unfold iblk
  rw [View.read_apply]
  show V m c main_v3 _ = _
  rw [V_main_v3]
  refine congrArg _ (funext fun ax => Fin.ext ?_)
  obtain ⟨e0, e1⟩ := idx6 t
  match ax with
  | ⟨0, _⟩ => show win0_6.index t (0 : Fin 2) * 64 + 1 * a.val = a.val; omega
  | ⟨1, _⟩ => show win0_6.index t (1 : Fin 2) * 10 + 1 * b.val = b.val; omega

theorem idx7 : ∀ t : Fin cfg0.N, win0_7.index t (0 : Fin 1) = 0 :=
  (by decide +kernel : ∀ t : Fin grid0.N, _)

/-- Window 7's block is the whole array at every point. -/
theorem blk7_apply (c : Dev nD) (t : Fin cfg0.N) (a : Fin 10) :
    iblk m c 7 t (ix1 a) = m ((c : Thread nD τ).loc main_arg7) (ix1 a) := by
  unfold iblk
  rw [View.read_apply]
  show V m c main_arg7 _ = _
  rw [V_main_arg7]
  refine congrArg _ (funext fun ax => Fin.ext ?_)
  have e0 := idx7 t
  match ax with
  | ⟨0, _⟩ => show win0_7.index t (0 : Fin 1) * 10 + 1 * a.val = a.val; omega

/-- The output window walks the [128, 10] result in blocks of [32, 10], one per batch tile. -/
theorem idx8 : ∀ t : Fin cfg0.N, win0_8.index t (0 : Fin 2) = t.val / 8 ∧ win0_8.index t (1 : Fin 2) = 0 :=
  (by decide +kernel : ∀ t : Fin grid0.N, _)

end Cert.KernelIdeal.Blocks

end
-- ==== Proof.KValue.lean ====
/-
  The kernel's result array as one function of its argument arrays.

  Within a batch tile the accumulator after chunk s holds the sum of the partial sums of chunks 0 … s (by the fold over
  the tile's points: the first chunk resets to zero and adds, each later chunk adds). After the last chunk it holds,
  at (r, h), the sum over all 1024 elements of hidden set h's responses for batch entry 32·tile + r: the pooled
  feature. The output block written there is the head applied to each row of pooled features, and the four tiles'
  blocks cover the result array.
-/
import proofs.«143342_j59828894433555_2_alg».proof.Proof.Gen.KernelIdeal.Value
import proofs.«143342_j59828894433555_2_alg».proof.Proof.Spec
import proofs.«143342_j59828894433555_2_alg».proof.Proof.KPay
import proofs.«143342_j59828894433555_2_alg».proof.Proof.KCases
import proofs.«143342_j59828894433555_2_alg».proof.Proof.KBlocks
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.KernelIdeal.RepValue

open Cert.KernelIdeal Cert.KernelIdeal.Gen Cert.KernelIdeal.Value Cert.KernelIdeal.Pay Cert.KernelIdeal.Cases
  Cert.KernelIdeal.Blocks Cert.RepSet

variable (m : (ℓ : Loc nD τ sig) → Buf (Elt Ideal) ℓ) (ρ : Dev nD → PrngReg)

/-! ## The argument arrays, as arrays of extended reals -/

abbrev aX (c : Dev nD) : (⟨3, ![128, 1024, 64]⟩ : Shape).Idx → EReal := m ((c : Thread nD τ).loc main_arg0)
abbrev aWc (c : Dev nD) : (⟨2, ![64, 512]⟩ : Shape).Idx → EReal := m ((c : Thread nD τ).loc main_arg1)
abbrev aW1 (c : Dev nD) : (⟨2, ![32, 64]⟩ : Shape).Idx → EReal := m ((c : Thread nD τ).loc main_arg2)
abbrev aB1 (c : Dev nD) : (⟨1, ![64]⟩ : Shape).Idx → EReal := m ((c : Thread nD τ).loc main_arg3)
abbrev aW2 (c : Dev nD) : (⟨2, ![64, 64]⟩ : Shape).Idx → EReal := m ((c : Thread nD τ).loc main_arg4)
abbrev aB2 (c : Dev nD) : (⟨1, ![64]⟩ : Shape).Idx → EReal := m ((c : Thread nD τ).loc main_arg5)
abbrev aW3 (c : Dev nD) : (⟨2, ![64, 10]⟩ : Shape).Idx → EReal := m ((c : Thread nD τ).loc main_arg6)
abbrev aB3 (c : Dev nD) : (⟨1, ![10]⟩ : Shape).Idx → EReal := m ((c : Thread nD τ).loc main_arg7)

/-- The specification's output array of core `c`'s arguments: what the result array ends holding. -/
def G (c : Dev nD) : Buf (Elt Ideal) ((c : Thread nD τ).loc main_v4) :=
  result (aX m c) (aWc m c) (aW1 m c) (aB1 m c) (aW2 m c) (aB2 m c) (aW3 m c) (aB3 m c)

/-! ## The accumulator over a batch tile's chunks -/

/-- Point `n`'s partial sums (zero past the grid, where nothing reads it). -/
def addend (c : Dev nD) (n : ℕ) : S32x32.Idx → EReal := fun i =>
  if h : n < cfg0.N then k0_pay4 (F := Ideal) (iblk m c 0 ⟨n, h⟩) (iblk m c 1 ⟨n, h⟩) i else 0

/-- At a tile's first chunk the accumulator is left at zero plus the chunk's partial sums, whatever it held. -/
theorem step_first (c : Dev nD) (n : ℕ) (hb : n < cfg0.N) (h0 : n % 8 = 0) (acc : Vec Ideal S32x32 .f32) (i : S32x32.Idx) :
    scAt0_0 m c n hb acc i = 0 + addend m c n i := by
  have h1 : ¬n % 8 = 7 := by omega
  unfold scAt0_0
  rw [dif_pos h0, dif_neg h1, acc_first, update_apply, reset_apply]
  unfold addend
  rw [dif_pos hb]

/-- At every later chunk the chunk's partial sums are added to what the accumulator held. -/
theorem step_later (c : Dev nD) (n : ℕ) (hb : n < cfg0.N) (h0 : ¬n % 8 = 0) (acc : Vec Ideal S32x32 .f32) (i : S32x32.Idx) :
    scAt0_0 m c n hb acc i = acc i + addend m c n i := by
  unfold scAt0_0
  rw [dif_neg h0]
  by_cases h1 : n % 8 = 7
  · rw [dif_pos h1, acc_last, update_apply]
    unfold addend
    rw [dif_pos hb]
  · rw [dif_neg h1, acc_middle, update_apply]
    unfold addend
    rw [dif_pos hb]

/-- After point `t` the accumulator holds the partial sums of its tile's chunks up to `t`'s. -/
theorem scratch_eq (c : Dev nD) (t : Fin cfg0.N) (i : S32x32.Idx) :
    (outsAt0 m c t.val t.isLt).2 i = 0 + ∑ s ∈ Finset.range (t.val % 8 + 1), addend m c (8 * (t.val / 8) + s) i := by
  rw [soutsAt0_0_eq m c t]
  exact Pipeline.accAt_add_apply (ι := S32x32.Idx) (β := EReal) _ _ (fun _ => (0 : EReal)) (addend m c) (8 * (t.val / 8)) 7
    (fun h i => step_first m c _ h (Nat.mul_mod_right 8 _) _ i)
    (fun n h acc i hlt hle => step_later m c n h (by omega) acc i)
    (t.val % 8) (by omega) _ i

/-- Chunk `s` of tile `bi`: its partial sum at (r, h) is the sum over the chunk's elements of hidden set h's
    responses for batch entry 32·bi + r. -/
theorem addend_apply (c : Dev nD) (bi : Fin 4) (s : Fin 8) (r h : Fin 32) (b : Fin 128) (hb : b.val = 32 * bi.val + r.val) :
    addend m c (8 * bi.val + s.val) (ix2 r h) = ∑ q : Fin 128, response (aX m c) (aWc m c) b (elem s q) h := by
  have hlt : 8 * bi.val + s.val < cfg0.N := by
    have := bi.isLt; have := s.isLt; rw [show cfg0.N = 32 from N_0]; omega
  unfold addend
  rw [dif_pos hlt, partial_apply]
  refine Finset.sum_congr rfl fun q _ => ?_
  unfold response
  rw [← chain16_eq_fold]
  refine congrArg chain16 (funext fun e => ?_)
  unfold Cert.RepSet.hidden
  refine congrArg (max · 0) (Finset.sum_congr rfl fun d _ => ?_)
  rw [blk0_apply m c ⟨8 * bi.val + s.val, hlt⟩ r q d b (elem s q)
      (by have := s.isLt; show b.val = 32 * ((8 * bi.val + s.val) / 8) + r.val; omega)
      (by have := s.isLt; show 128 * s.val + q.val = 128 * ((8 * bi.val + s.val) % 8) + q.val; omega),
    blk1_apply]
  rfl

/-- After a tile's last chunk the accumulator holds the pooled features of the tile's 32 batch entries. -/
theorem pooled_eq (c : Dev nD) (t : Fin cfg0.N) (h7 : t.val % 8 = 7) (r h : Fin 32) (b : Fin 128)
    (hb : b.val = 32 * (t.val / 8) + r.val) :
    (outsAt0 m c t.val t.isLt).2 (ix2 r h) = pooled (aX m c) (aWc m c) b h := by
  have hN : t.val < 32 := lt_of_lt_of_eq t.isLt N_0
  have e8 : t.val % 8 + 1 = 8 := by omega
  rw [scratch_eq, e8, zero_add, Finset.sum_range]
  unfold pooled
  rw [sum_elem]
  refine Finset.sum_congr rfl fun s _ => ?_
  exact addend_apply m c ⟨t.val / 8, by omega⟩ s r h b hb

/-! ## The output block at a tile's last chunk -/

/-- The head's value depends only on its weights and its row. -/
theorem head_congr {w1 w1' : (⟨2, ![32, 64]⟩ : Shape).Idx → EReal} {b1 b1' : (⟨1, ![64]⟩ : Shape).Idx → EReal}
    {w2 w2' : (⟨2, ![64, 64]⟩ : Shape).Idx → EReal} {b2 b2' : (⟨1, ![64]⟩ : Shape).Idx → EReal}
    {w3 w3' : (⟨2, ![64, 10]⟩ : Shape).Idx → EReal} {b3 b3' : (⟨1, ![10]⟩ : Shape).Idx → EReal} {v v' : Fin 32 → EReal}
    (e1 : w1 = w1') (e2 : b1 = b1') (e3 : w2 = w2') (e4 : b2 = b2') (e5 : w3 = w3') (e6 : b3 = b3') (e7 : v = v') (o : Fin 10) :
    head w1 b1 w2 b2 w3 b3 v o = head w1' b1' w2' b2' w3' b3' v' o := by
  subst e1 e2 e3 e4 e5 e6 e7; rfl

/-- At a tile's last chunk the output block is the head of the updated accumulator. -/
theorem out_of_acc (c : Dev nD) (t : Fin cfg0.N) (h7 : t.val % 8 = 7) :
    (outsAt0 m c t.val t.isLt).1 = k0_pay2 (F := Ideal) ((outsAt0 m c t.val t.isLt).2) (iblk m c 2 t) (iblk m c 3 t) (iblk m c 4 t)
      (iblk m c 5 t) (iblk m c 6 t) (iblk m c 7 t) := by
  have h0 : ¬t.val % 8 = 0 := by omega
  rw [outsAt0_C m c t h0 h7]
  dsimp only
  rw [out_last, acc_last]

/-- … so its entry (r, o) is the specification's output at batch entry 32·tile + r. -/
theorem out_entry (c : Dev nD) (t : Fin cfg0.N) (h7 : t.val % 8 = 7) (r : Fin 32) (o : Fin 10) (b : Fin 128)
    (hb : b.val = 32 * (t.val / 8) + r.val) :
    (outsAt0 m c t.val t.isLt).1 (ix2 r o) = G m c (ix2 b o) := by
  rw [out_of_acc m c t h7]
  refine (head_apply _ _ _ _ _ _ _ r o).trans ?_
  show _ = head (aW1 m c) (aB1 m c) (aW2 m c) (aB2 m c) (aW3 m c) (aB3 m c) (fun h => pooled (aX m c) (aWc m c) b h) o
  refine head_congr ?_ ?_ ?_ ?_ ?_ ?_ (funext fun h => pooled_eq m c t h7 r h b hb) o
  · funext y; obtain ⟨a, b', rfl⟩ : ∃ (a : Fin 32) (b' : Fin 64), y = ix2 a b' := ⟨y 0, y 1, eq_ix2 y⟩; exact blk2_apply m c t a b'
  · funext y; obtain ⟨a, rfl⟩ : ∃ (a : Fin 64), y = ix1 a := ⟨y 0, eq_ix1 y⟩; exact blk3_apply m c t a
  · funext y; obtain ⟨a, b', rfl⟩ : ∃ (a : Fin 64) (b' : Fin 64), y = ix2 a b' := ⟨y 0, y 1, eq_ix2 y⟩; exact blk4_apply m c t a b'
  · funext y; obtain ⟨a, rfl⟩ : ∃ (a : Fin 64), y = ix1 a := ⟨y 0, eq_ix1 y⟩; exact blk5_apply m c t a
  · funext y; obtain ⟨a, b', rfl⟩ : ∃ (a : Fin 64) (b' : Fin 10), y = ix2 a b' := ⟨y 0, y 1, eq_ix2 y⟩; exact blk6_apply m c t a b'
  · funext y; obtain ⟨a, rfl⟩ : ∃ (a : Fin 10), y = ix1 a := ⟨y 0, eq_ix1 y⟩; exact blk7_apply m c t a

/-! ## From the blocks to the array -/

/-- What a write-back writes is its block of the specification's output. -/
theorem flushed_eq (c : Dev nD) (t : Fin cfg0.N) (hf : (cfg0.win 8).flush t = true) :
    (dats m 0 c).flushed 8 t = ((cfg0.win 8).blk t).view.read (Elt Ideal) (G m c) := by
  have h7 : t.val % 8 = 7 := (flush0_8 t).mp hf
  have hN : t.val < 32 := lt_of_lt_of_eq t.isLt N_0
  rw [flushed8]
  funext y
  rw [View.read_apply]
  show (outsAt0 m c t.val t.isLt).1 y = G m c (((cfg0.win 8).blk t).view.emb y)
  obtain ⟨r, o, rfl⟩ : ∃ (r : Fin 32) (o : Fin 10), y = ix2 r o := ⟨y 0, y 1, eq_ix2 y⟩
  obtain ⟨e0, e1⟩ := idx8 t
  rw [show ((cfg0.win 8).blk t).view.emb (ix2 r o) = ix2 (⟨32 * (t.val / 8) + r.val, by have := r.isLt; omega⟩ : Fin 128) o from
    funext fun a => Fin.ext (by
      match a with
      | ⟨0, _⟩ => show win0_8.index t (0 : Fin 2) * 32 + 1 * r.val = 32 * (t.val / 8) + r.val; omega
      | ⟨1, _⟩ => show win0_8.index t (1 : Fin 2) * 10 + 1 * o.val = o.val; omega)]
  exact out_entry m c t h7 r o _ rfl

/-- The result array after the run is the specification's output: each batch tile's last point writes its block, and
    the four blocks cover the array. -/
theorem final (c : Dev nD) : (dats m 0 c).arrAt 8 cfg0.N = G m c :=
  (dats m 0 c).arrAt_eq_of_cover 8 (G m c) (flushed_eq m c) fun i => by
    have hi0 : (i 0 : Nat) < 128 := (i 0).isLt
    have hi1 : (i 1 : Nat) < 10 := (i 1).isLt
    have hlt : 8 * ((i 0 : Nat) / 32) + 7 < cfg0.N := by rw [show cfg0.N = 32 from N_0]; omega
    obtain ⟨t, ht⟩ : ∃ t : Fin cfg0.N, t.val = 8 * ((i 0 : Nat) / 32) + 7 := ⟨⟨_, hlt⟩, rfl⟩
    refine ⟨t, (flush0_8 t).mpr (by omega), ?_⟩
    show i ∈ ((View.whole main_v4).slice (win0_8.rect t)).set
    rw [View.set_slice_whole, Rect.mem_set_unit]
    obtain ⟨e0, e1⟩ := idx8 t
    intro a
    match a with
    | ⟨0, _⟩ => show win0_8.index t (0 : Fin 2) * 32 ≤ (i 0 : Nat) ∧ (i 0 : Nat) < win0_8.index t (0 : Fin 2) * 32 + 32; omega
    | ⟨1, _⟩ => show win0_8.index t (1 : Fin 2) * 10 ≤ (i 1 : Nat) ∧ (i 1 : Nat) < win0_8.index t (1 : Fin 2) * 10 + 10; omega

/-- The kernel's run: the result array at the specification's output, the arguments unchanged. -/
theorem run : θ_run defs (onTc (τ := τ) (main (F := Ideal))) ⟨m, fun _ => 0, ρ⟩ fun r => ∀ c : Dev nD,
      r.2.mem ((c : Thread nD τ).loc main_v4) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (run_blocks m ρ)

end Cert.KernelIdeal.RepValue

end
-- ==== Proof.RefValue.lean ====
/-
  The reference program computes the specification. Its run ends at the composed term of its operations; read
  one operation at a time at an index, that term is: the rectified inner products, regrouped as 16 members by 32 sets,
  reduced by a maximum over the members from -∞, summed over the 1024 elements from 0, then the three dense layers.
  The maximum reduction is the fold of `max` from `⊥` over the member coordinate, and the sum from the zero word is
  the plain sum.
-/
import proofs.«143342_j59828894433555_2_alg».proof.Proof.Gen.ReferenceIdeal.Read
import proofs.«143342_j59828894433555_2_alg».proof.Proof.Spec
import Idealize.ShloMosaic.Lib.ValueIdx
import Idealize.ShloMosaic.PureOps.Ideal.Laws

noncomputable section

open scoped BigOperators
open Idealize.ShloMosaic Idealize.ShloMosaic.TcCoe Idealize.ShloMosaic.ValueIdx

namespace Cert.ReferenceIdeal.RefValue

open Cert.ReferenceIdeal Cert.ReferenceIdeal.Gen Cert.ReferenceIdeal.Read Cert.RepSet

variable (x0 : (⟨S128x1024x64, .f32⟩ : BufTy).Contents (Elt Ideal)) (x1 : (⟨S64x512, .f32⟩ : BufTy).Contents (Elt Ideal))
  (x2 : (⟨S32x64, .f32⟩ : BufTy).Contents (Elt Ideal)) (x3 : (⟨S64, .f32⟩ : BufTy).Contents (Elt Ideal))
  (x4 : (⟨S64x64, .f32⟩ : BufTy).Contents (Elt Ideal)) (x5 : (⟨S64, .f32⟩ : BufTy).Contents (Elt Ideal))
  (x6 : (⟨S64x10, .f32⟩ : BufTy).Contents (Elt Ideal)) (x7 : (⟨S10, .f32⟩ : BufTy).Contents (Elt Ideal))

theorem zero_word : (FloatOps.ofBits (F := Ideal) .f32 0x00000000#32 : Ideal .f32) = 0 := Ideal.ofBits_zero_f32

theorem neg_inf_word : (FloatOps.ofBits (F := Ideal) .f32 0xFF800000#32 : Ideal .f32) = ⊥ := by
  show Ideal.ofBits .f32 0xFF800000#32 = ⊥
  simp [Ideal.ofBits, Ideal.ieee]

/-- The rectified inner product of element (b, p) with weight column k. -/
theorem hidden_ref (b : Fin 128) (p : Fin 1024) (k : Fin 512) :
    val_main_v1 (F := Ideal) x0 x1 (ix3 b p k) = hidden x0 x1 b p k := by
  have el : ∀ d : Fin 64, lidx_main_v0 (ix3 b p k) d = ix3 b p d := fun d =>
    funext fun a => Fin.ext (by match a with | ⟨0, _⟩ => rfl | ⟨1, _⟩ => rfl | ⟨2, _⟩ => rfl)
  have er : ∀ d : Fin 64, ridx_main_v0 (ix3 b p k) d = ix2 d k := fun d =>
    funext fun a => Fin.ext (by match a with | ⟨0, _⟩ => rfl | ⟨1, _⟩ => rfl)
  rw [val_main_v1_apply, val_main_v0_apply, val_main_call0_v0_apply, val_main_call0_cst_apply, zero_word]
  simp only [el, er, Ideal.maximumf_def]
  rfl

/-- Regrouped as members by sets, entry (b, p, e, h) is hidden unit 32·e + h. -/
theorem grouped_ref (b : Fin 128) (p : Fin 1024) (e : Fin 16) (h : Fin 32) :
    val_main_v2 (F := Ideal) x0 x1 (ix4 b p e h) = hidden x0 x1 b p (unit e h) := by
  have ei : idx_main_v2 (ix4 b p e h) = ix3 b p (unit e h) := funext fun a => Fin.ext (by
    have hb := b.isLt; have hp := p.isLt; have he := e.isLt; have hh := h.isLt
    match a with
    | ⟨0, _⟩ => show (((b.val * 1024 + p.val) * 16 + e.val) * 32 + h.val) / 524288 = b.val; omega
    | ⟨1, _⟩ => show (((b.val * 1024 + p.val) * 16 + e.val) * 32 + h.val) / 512 % 1024 = p.val; omega
    | ⟨2, _⟩ => show (((b.val * 1024 + p.val) * 16 + e.val) * 32 + h.val) % 512 = 32 * e.val + h.val; omega)
  rw [val_main_v2_apply, ei, hidden_ref]

/-- The maximum over the members: the set's response. -/
theorem response_ref (b : Fin 128) (p : Fin 1024) (h : Fin 32) :
    val_main_v3 (F := Ideal) x0 x1 (ix3 b p h) = response x0 x1 b p h := by
  unfold val_main_v3
  have hR : S128x1024x16x32.Reduces [2] S128x1024x32 := by decide
  rw [Host.reduce_eq_fold_single FloatOps.maximumf _ _ reducesTo_S128x1024x16x32_S128x1024x32_d2 hR h_S_ (ix3 b p h)]
  rw [val_main_cst_apply, neg_inf_word]
  unfold response
  have hf : (val_main_v2 (F := Ideal) x0 x1 ∘ hR.lift (ix3 b p h)) = fun e : Fin 16 => hidden x0 x1 b p (unit e h) := funext fun e => by
    show val_main_v2 (F := Ideal) x0 x1 (hR.lift (ix3 b p h) e) = _
    rw [show hR.lift (ix3 b p h) e = ix4 b p (⟨e.val, e.isLt⟩ : Fin 16) h from funext fun a => Fin.ext (by
      match a with | ⟨0, _⟩ => rfl | ⟨1, _⟩ => rfl | ⟨2, _⟩ => rfl | ⟨3, _⟩ => rfl)]
    exact grouped_ref x0 x1 b p _ h
  exact congrArg (fun f => Finset.fold max ⊥ f (Finset.univ : Finset (Fin 16))) hf

/-- The sum over the elements: the pooled feature. -/
theorem pooled_ref (b : Fin 128) (h : Fin 32) : val_main_v4 (F := Ideal) x0 x1 (ix2 b h) = pooled x0 x1 b h := by
  rw [val_main_v4_apply, val_main_cst_0_apply, zero_word, zero_add]
  unfold pooled
  refine Finset.sum_congr rfl fun p _ => ?_
  rw [show idx_main_v4 (ix2 b h) p = ix3 b p h from funext fun a => Fin.ext (by
    match a with | ⟨0, _⟩ => rfl | ⟨1, _⟩ => rfl | ⟨2, _⟩ => rfl)]
  exact response_ref x0 x1 b p h

/-- The first dense layer, rectified. -/
theorem layer1_ref (b : Fin 128) (j : Fin 64) :
    val_main_v9 (F := Ideal) x0 x1 x2 x3 (ix2 b j) = max (dense (fun h => pooled x0 x1 b h) x2 x3 j) 0 := by
  have el : ∀ k : Fin 32, lidx_main_v5 (ix2 b j) k = ix2 b k := fun k =>
    funext fun a => Fin.ext (by match a with | ⟨0, _⟩ => rfl | ⟨1, _⟩ => rfl)
  have er : ∀ k : Fin 32, ridx_main_v5 (ix2 b j) k = ix2 k j := fun k =>
    funext fun a => Fin.ext (by match a with | ⟨0, _⟩ => rfl | ⟨1, _⟩ => rfl)
  have eb : idx_main_v6 (idx_main_v7 (ix2 b j)) = ix1 j := funext fun a => Fin.ext (by match a with | ⟨0, _⟩ => rfl)
  rw [val_main_v9_apply, val_main_v8_apply, val_main_v5_apply, val_main_v7_apply, val_main_v6_apply, val_main_call1_v0_apply,
    val_main_call1_cst_apply, zero_word]
  simp only [el, er, eb, pooled_ref, Ideal.maximumf_def, Ideal.addf_def]
  rfl

/-- The second dense layer, rectified. -/
theorem layer2_ref (b : Fin 128) (j : Fin 64) :
    val_main_v14 (F := Ideal) x0 x1 x2 x3 x4 x5 (ix2 b j)
      = max (dense (fun j => max (dense (fun h => pooled x0 x1 b h) x2 x3 j) 0) x4 x5 j) 0 := by
  have el : ∀ k : Fin 64, lidx_main_v10 (ix2 b j) k = ix2 b k := fun k =>
    funext fun a => Fin.ext (by match a with | ⟨0, _⟩ => rfl | ⟨1, _⟩ => rfl)
  have er : ∀ k : Fin 64, ridx_main_v10 (ix2 b j) k = ix2 k j := fun k =>
    funext fun a => Fin.ext (by match a with | ⟨0, _⟩ => rfl | ⟨1, _⟩ => rfl)
  have eb : idx_main_v11 (idx_main_v12 (ix2 b j)) = ix1 j := funext fun a => Fin.ext (by match a with | ⟨0, _⟩ => rfl)
  rw [val_main_v14_apply, val_main_v13_apply, val_main_v10_apply, val_main_v12_apply, val_main_v11_apply, val_main_call2_v0_apply,
    val_main_call2_cst_apply, zero_word]
  simp only [el, er, eb, layer1_ref, Ideal.maximumf_def, Ideal.addf_def]
  rfl

/-- The reference's result is the specification's output array. -/
theorem reference_eq : val_main_v18 (F := Ideal) x0 x1 x2 x3 x4 x5 x6 x7 = result x0 x1 x2 x3 x4 x5 x6 x7 := by
  funext i
  obtain ⟨b, o, rfl⟩ : ∃ (b : Fin 128) (o : Fin 10), i = ix2 b o := ⟨i 0, i 1, eq_ix2 i⟩
  have el : ∀ k : Fin 64, lidx_main_v15 (ix2 b o) k = ix2 b k := fun k =>
    funext fun a => Fin.ext (by match a with | ⟨0, _⟩ => rfl | ⟨1, _⟩ => rfl)
  have er : ∀ k : Fin 64, ridx_main_v15 (ix2 b o) k = ix2 k o := fun k =>
    funext fun a => Fin.ext (by match a with | ⟨0, _⟩ => rfl | ⟨1, _⟩ => rfl)
  have eb : idx_main_v16 (idx_main_v17 (ix2 b o)) = ix1 o := funext fun a => Fin.ext (by match a with | ⟨0, _⟩ => rfl)
  rw [val_main_v18_apply, val_main_v15_apply, val_main_v17_apply, val_main_v16_apply, result_apply]
  simp only [el, er, eb, layer2_ref, Ideal.addf_def]
  rfl

end Cert.ReferenceIdeal.RefValue

end
-- ==== Proof.lean ====
/-
  The certificate of the pooled representative-set network: the Pallas kernel and its jnp reference compute the same
  [128, 10] array over the extended reals.

  Both programs rectify the inner products of each set element's 64 features with 512 weight columns, take for each
  of 32 hidden sets the largest of its 16 members, sum these responses over the set's 1024 elements, and apply three
  dense layers (the first two rectified) to the 32 pooled features. The reference does this on whole arrays. The kernel
  walks 4 batch tiles by 8 chunks of 128 elements, keeps a [32, 32] accumulator over a tile's chunks (reset at the
  first chunk), and at a tile's last chunk stores the dense layers of the accumulator as the tile's output block.
  The two agree because a maximum taken member by member is the maximum of the family, and a sum over 1024 elements is
  the sum over 8 chunks of the sums over 128: laws of `max` and of `+` that hold for every extended real, so the
  precondition (finite inputs) is not used. The roundings to bf16 are the identity over the extended reals, and the
  kernel's idealization rewrote nothing.

  The frames of the two kernel programs are the generated frame certificates; the reference's frame is its generated
  run with the result dropped.
-/
import proofs.«143342_j59828894433555_2_alg».proof.Defs
import proofs.«143342_j59828894433555_2_alg».proof.Proof.Gen.Kernel
import proofs.«143342_j59828894433555_2_alg».proof.Proof.Gen.Kernel.Skeleton
import proofs.«143342_j59828894433555_2_alg».proof.Proof.Gen.Kernel.Launch
import proofs.«143342_j59828894433555_2_alg».proof.Proof.Gen.Kernel.Points
import proofs.«143342_j59828894433555_2_alg».proof.Proof.Gen.Kernel.Frame
import proofs.«143342_j59828894433555_2_alg».proof.Proof.Gen.KernelIdeal
import proofs.«143342_j59828894433555_2_alg».proof.Proof.Gen.KernelIdeal.Skeleton
import proofs.«143342_j59828894433555_2_alg».proof.Proof.Gen.KernelIdeal.Launch
import proofs.«143342_j59828894433555_2_alg».proof.Proof.Gen.KernelIdeal.Points
import proofs.«143342_j59828894433555_2_alg».proof.Proof.Gen.KernelIdeal.Frame
import proofs.«143342_j59828894433555_2_alg».proof.Proof.Gen.ReferenceIdeal
import proofs.«143342_j59828894433555_2_alg».proof.Proof.Gen.Pre_finite_inputs
import proofs.«143342_j59828894433555_2_alg».proof.Proof.Gen.KernelIdeal.Value
import proofs.«143342_j59828894433555_2_alg».proof.Proof.Gen.ReferenceIdeal.Run
import proofs.«143342_j59828894433555_2_alg».proof.Proof.Gen.ReferenceIdeal.Read
import proofs.«143342_j59828894433555_2_alg».proof.Proof.KValue
import proofs.«143342_j59828894433555_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals the kernel's result array ends at the specification's output array of its arguments, and the
    reference's result at the same function of arguments that agree. -/
theorem algebraic : Cert.algebraic_KernelIdeal_ReferenceIdeal := by
  intro m ρ m' ρ' _ hagree
  refine ⟨fun c => Cert.KernelIdeal.RepValue.G m c, Cert.KernelIdeal.RepValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefValue.reference_eq, (hagree c).1, (hagree c).2.1,
    (hagree c).2.2.1, (hagree c).2.2.2.1, (hagree c).2.2.2.2.1, (hagree c).2.2.2.2.2.1, (hagree c).2.2.2.2.2.2.1,
    (hagree c).2.2.2.2.2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
